-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x64 : Shape := ⟨3, ![4, 1024, 64]⟩
abbrev S_ : Shape := ⟨0, ![]⟩

class Facts : Prop where
  bcast_S_S4x1024x64 : S_.BroadcastsInDim S4x1024x64 (![] : Fin 0 → Fin S4x1024x64.rank)
  reducesTo_S4x1024x64_S_d0_1_2 : S4x1024x64.ReducesTo [0, 1, 2] S_
  h_S_ : 0 < S_.numel

variable [Facts]

def fn {F : FTy → Type} [FloatOps F] (main_arg0 : FVec F S4x1024x64 .f32) (main_arg1 : FVec F S4x1024x64 .f32) : IVec S_ 1 :=
  let main_v0 : FVec F S4x1024x64 .f32 := Host.absf main_arg0
  let main_cst : FVec F S_ .f32 := constant S_ .f32 0x7F800000#32
  let main_v1 : FVec F S4x1024x64 .f32 := broadcastInDim S4x1024x64 ![] bcast_S_S4x1024x64 main_cst
  let main_v2 : IVec S4x1024x64 1 := cmpf .olt main_v0 main_v1
  let main_c : IVec S_ 1 := constantI S_ 1 1#1
  let main_v3 : IVec S_ 1 := (fun x v => Host.reduce IntOp.andi x v reducesTo_S4x1024x64_S_d0_1_2 h_S_) main_v2 main_c
  let main_v4 : FVec F S4x1024x64 .f32 := Host.absf main_arg1
  let main_cst_0 : FVec F S_ .f32 := constant S_ .f32 0x7F800000#32
  let main_v5 : FVec F S4x1024x64 .f32 := broadcastInDim S4x1024x64 ![] bcast_S_S4x1024x64 main_cst_0
  let main_v6 : IVec S4x1024x64 1 := cmpf .olt main_v4 main_v5
  let main_c_1 : IVec S_ 1 := constantI S_ 1 1#1
  let main_v7 : IVec S_ 1 := (fun x v => Host.reduce IntOp.andi x v reducesTo_S4x1024x64_S_d0_1_2 h_S_) main_v6 main_c_1
  let main_v8 : IVec S_ 1 := andi main_v3 main_v7
  main_v8
-- ==== Kernel.lean ====
abbrev S4x1024x64 : Shape := ⟨3, ![4, 1024, 64]⟩
abbrev S4x1024x1024 : Shape := ⟨3, ![4, 1024, 1024]⟩
abbrev S1x256x64 : Shape := ⟨3, ![1, 256, 64]⟩
abbrev S1x1024x64 : Shape := ⟨3, ![1, 1024, 64]⟩
abbrev S1x256x1024 : Shape := ⟨3, ![1, 256, 1024]⟩
abbrev S256x64 : Shape := ⟨2, ![256, 64]⟩
abbrev S1024x64 : Shape := ⟨2, ![1024, 64]⟩
abbrev S256 : Shape := ⟨1, ![256]⟩
abbrev S256x1 : Shape := ⟨2, ![256, 1]⟩
abbrev S1024 : Shape := ⟨1, ![1024]⟩
abbrev S1024x1 : Shape := ⟨2, ![1024, 1]⟩
abbrev S1x1024 : Shape := ⟨2, ![1, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x1024x64, .f32⟩
  | .hbm, ⟨1, _⟩ => ⟨S4x1024x64, .f32⟩
  | .hbm, ⟨2, _⟩ => ⟨S4x1024x1024, .f32⟩
  | .local _ .vmem, ⟨0, _⟩ => ⟨S1x256x64, .f32⟩
  | .local _ .vmem, ⟨1, _⟩ => ⟨S1x256x64, .f32⟩
  | .local _ .vmem, ⟨2, _⟩ => ⟨S1x1024x64, .f32⟩
  | .local _ .vmem, ⟨3, _⟩ => ⟨S1x1024x64, .f32⟩
  | .local _ .vmem, ⟨4, _⟩ => ⟨S1x256x1024, .f32⟩
  | .local _ .vmem, ⟨5, _⟩ => ⟨S1x256x1024, .f32⟩
  | _, _ => ⟨S4x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S256x64_S256 : S256x64.Reduces [1] S256
  shapeCasts_S256_S256x1 : S256.ShapeCasts S256x1
  reduces_S1024x64_S1024 : S1024x64.Reduces [1] S1024
  shapeCasts_S1024_S1024x1 : S1024.ShapeCasts S1024x1
  shapeCasts_S1024x1_S1x1024 : S1024x1.ShapeCasts S1x1024
  bitsLt_bf16_f32 : FTy.bits .bf16 < FTy.bits .f32
  broadcasts_S256x1_S256x1024 : S256x1.Broadcasts S256x1024
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S256x64_S1024x64_S256x1024_1_1_0_0_n_n_wf : DotDims.WF S256x64 S1024x64 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S4x1024x64.size a
  hwx0_0 : ∀ i : grid0.Coords, EltTy.bits .f32 = 32 ∨ (Rect.block (s := S4x1024x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S4x1024x64.size a
  hwx0_1 : ∀ i : grid0.Coords, EltTy.bits .f32 = 32 ∨ (Rect.block (s := S4x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S4x1024x1024.size a
  hwx0_2 : ∀ i : grid0.Coords, EltTy.bits .f32 = 32 ∨ (Rect.block (s := S4x1024x1024) S1x256x1024.size (cc0_transform_2 i) (hinb0_2 i)).WholeWords (EltTy.packing .f32)

variable [Facts₀]

def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf

abbrev win0_0 : Pipeline.Window sig grid0 :=
  Pipeline.Window.ofSpec (Memref.whole main_arg0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x1024x64 : Shape := ⟨3, ![4, 1024, 64]⟩
abbrev S4x1024x1x64 : Shape := ⟨4, ![4, 1024, 1, 64]⟩
abbrev S4x1x1024x64 : Shape := ⟨4, ![4, 1, 1024, 64]⟩
abbrev S4x1024x1024x64 : Shape := ⟨4, ![4, 1024, 1024, 64]⟩
abbrev S_ : Shape := ⟨0, ![]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x1024x64, .f32⟩
  | .hbm, ⟨1, _⟩ => ⟨S4x1024x64, .f32⟩
  | .hbm, ⟨2, _⟩ => ⟨S4x1024x1x64, .f32⟩
  | .hbm, ⟨3, _⟩ => ⟨S4x1x1024x64, .f32⟩
  | .hbm, ⟨4, _⟩ => ⟨S4x1024x1024x64, .f32⟩
  | .hbm, ⟨5, _⟩ => ⟨S4x1024x1024x64, .f32⟩
  | .hbm, ⟨6, _⟩ => ⟨S4x1024x1024x64, .f32⟩
  | .hbm, ⟨7, _⟩ => ⟨S4x1024x1024x64, .f32⟩
  | .hbm, ⟨8, _⟩ => ⟨S_, .f32⟩
  | .hbm, ⟨9, _⟩ => ⟨S4x1024x1024, .f32⟩
  | _, _ => ⟨S4x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S4x1024x64_S4x1024x1x64_0_1_3 : S4x1024x64.BroadcastsInDim S4x1024x1x64 (![0, 1, 3] : Fin 3 → Fin S4x1024x1x64.rank)
  bcast_S4x1024x64_S4x1x1024x64_0_2_3 : S4x1024x64.BroadcastsInDim S4x1x1024x64 (![0, 2, 3] : Fin 3 → Fin S4x1x1024x64.rank)
  bcast_S4x1024x1x64_S4x1024x1024x64_0_1_2_3 : S4x1024x1x64.BroadcastsInDim S4x1024x1024x64 (![0, 1, 2, 3] : Fin 4 → Fin S4x1024x1024x64.rank)
  bcast_S4x1x1024x64_S4x1024x1024x64_0_1_2_3 : S4x1x1024x64.BroadcastsInDim S4x1024x1024x64 (![0, 1, 2, 3] : Fin 4 → Fin S4x1024x1024x64.rank)
  reducesTo_S4x1024x1024x64_S4x1024x1024_d3 : S4x1024x1024x64.ReducesTo [3] S4x1024x1024
  h_S_ : 0 < S_.numel

variable [Facts₀]

class Facts : Prop extends Facts₀ where

variable [Facts]
-- ==== Proof.LibKeepdims.lean ====
/-
  A reduction along the last axis of an `[a, b]` array that keeps its dimension (`keepdims=True`): the `[a]` result is
  re-laid as a column `[a, 1]` and the column is spread back over the `b` lanes of every row. Read at an index, the
  column at `(i, u)` is the vector at `i`, the spread column at `(p, c)` is the column at `(p, 0)`, and the source
  index that a one-axis reduction along axis 1 visits for row `p` and coordinate `k` is `(p, k)`. Stated for any
  extents `a`, `b` and any element type.
-/
import Idealize.ShloMosaic.Lib.Pipeline.Value
import Idealize.ShloMosaic.Lib.ValueIdx
import Idealize.ShloMosaic.PureOps.Reduce

namespace Cert.Lib.Keepdims

open Idealize.ShloMosaic Idealize.ShloMosaic.ValueIdx

variable {α : Type}

/-- An `[a]` vector cast to the column `[a, 1]` reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector re-laid as a column and spread over the lanes reads, at `(p, c)`, the vector at `p`. -/
theorem column_spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A one-axis reduction of `[a, b]` along axis 1 visits, for row `p` and coordinate `k` of the reduced axis, the
    source index `(p, k)`. -/
theorem lift_axis1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Cert.Lib.Keepdims
-- ==== Proof.LibRowSums.lean ====
/-
  Row sums of an `[a, b]` array and the two re-layings a kernel applies to them, read at an index (general: any extents).
    * `rowSum_apply`: a lane reduction by addition along the last axis, from the zero pattern, is at row p the sum over
      the b lanes of that row, at the ideal values;
    * `shapeCast_a1_1a_apply`: a column `[a, 1]` re-laid as a row `[1, a]` reads at (0, i) the column's entry (i, 0): both
      are position i in row-major order;
    * `column_as_row_spread_apply`: a vector laid as a column, re-laid as a row and spread over `c` rows reads at (p, q)
      the vector's entry q.
-/
import Idealize.ShloMosaic.Lib.Pipeline.Value
import Idealize.ShloMosaic.Lib.ValueIdx
import Idealize.ShloMosaic.Lib.ValueLayout
import Idealize.ShloMosaic.PureOps.Ideal.Laws
import proofs.«157061_j41875931136253_2_alg».proof.Proof.LibKeepdims

noncomputable section

namespace Cert.Lib.RowSums

open Idealize.ShloMosaic Idealize.ShloMosaic.ValueIdx

/-- The sum along the last axis of an `[a, b]` array, started from the f32 zero pattern, is at row `p` the sum of the
    row's `b` entries (at the ideal values, where a reduction is the exact sum in any order). -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.bits .f32)) = FKind.add.neutral .f32 hφ) (p : Fin a) :
    multiReduction (F := Ideal) .add [1] ⟨1, ![a]⟩ v 0x00000000#32 h hφ hacc (ix1 p) = ∑ k : Fin b, v (ix2 p k) := by
  refine (Ideal.multiReduction_add_single v _ h hφ hacc (ix1 p)).trans ?_
  exact Finset.sum_congr rfl fun k _ => congrArg v (Cert.Lib.Keepdims.lift_axis1 h p k)

variable {α : Type}

/-- An `[a, 1]` column re-laid as a `[1, a]` row reads, at `(u, i)`, the column's entry of row `i`. -/
theorem shapeCast_a1_1a_apply {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A vector laid as a column, the column re-laid as a row, the row spread over `c` rows: at `(p, q)` the vector at `q`. -/
theorem column_as_row_spread_apply {a c : ℕ} (x : (⟨1, ![a]⟩ : Shape).Idx → α)
    (h1 : (⟨1, ![a]⟩ : Shape).ShapeCasts ⟨2, ![a, 1]⟩) (h2 : (⟨2, ![a, 1]⟩ : Shape).ShapeCasts ⟨2, ![1, a]⟩)
    (h3 : (⟨2, ![1, a]⟩ : Shape).Broadcasts ⟨2, ![c, a]⟩) (p : Fin c) (q : Fin a) :
    broadcastTo ⟨2, ![c, a]⟩ (shapeCast ⟨2, ![1, a]⟩ (shapeCast ⟨2, ![a, 1]⟩ x h1) h2) h3 (ix2 p q) = x (ix1 q) :=
  (broadcastTo_1b_ab_apply _ h3 p q).trans
    ((shapeCast_a1_1a_apply _ h2 0 q).trans (Cert.Lib.Keepdims.shapeCast_a_a1_apply x h1 q 0))

end Cert.Lib.RowSums

end
-- ==== Proof.LibTransposedRhsMatmul.lean ====
/-
  A matrix product whose right operand is contracted on its LAST axis (rows × contraction times columns × contraction,
  "A · Bᵀ" without a transpose), read at an index at the ideal values: a `tpu.matmul` with those dimension numbers into
  the zero accumulator is, at (a, b), the sum over the contracted coordinate c of the left operand at (a, c) times the
  right operand at (b, c). Stated over abstract sizes and operand formats.
-/
import Idealize.ShloMosaic.Lib.ValueIdx
import Idealize.ShloMosaic.PureOps.Ideal.Laws

noncomputable section

namespace Cert.Lib.TransposedRhsMatmul

open Idealize.ShloMosaic Idealize.ShloMosaic.ValueIdx

variable {m k n : Nat}

/-- `A · Bᵀ` into zeros at (a, b) is `∑ c, A (a, c) · B (b, c)`: the contraction index has one coordinate, which is the
    last coordinate of both operand indices, and the other coordinate of each is the output's row, resp. column. -/
theorem matmul_transposedRhs_zero_apply {φ₁ φ₂ : FTy} (prec : Option ContractPrecision)
    (A : FVec Ideal ⟨2, ![m, k]⟩ φ₁) (B : FVec Ideal ⟨2, ![n, k]⟩ φ₂) (a : Fin m) (b : Fin n) :
    FloatOps.matmul (DotDims.transposedRhs m k n) prec A B (constant (F := Ideal) ⟨2, ![m, n]⟩ .f32 0x00000000#32) (ix2 a b)
      = ∑ c : Fin k, A (ix2 a c) * B (ix2 b c) := by
  rw [Ideal.matmul_constant_zero_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

end Cert.Lib.TransposedRhsMatmul

end
-- ==== Proof.BlockPayload.lean ====
/-
  What the kernel body stores, entry by entry. From a [1, 256, 64] block `a` of the first array and the whole
  [1, 1024, 64] batch `b` of the second it computes, for row p of `a` and row q of `b`,
      max ( Σ_k a[p,k]² + Σ_k b[q,k]² + Σ_k (c·a[p,k])·b[q,k] , 0 ),      c the f32 constant −2:
  the row sums of squares, the first kept as a column and spread along the lanes, the second re-laid as a row and
  spread along the rows, plus the product of the scaled block with the second operand contracted on its last axis (the
  narrowing to bf16 before the product is the identity at the ideal values), clamped below at zero.
-/
import proofs.«157061_j41875931136253_2_alg».proof.Proof.Gen.KernelIdeal.Skeleton
import proofs.«157061_j41875931136253_2_alg».proof.Proof.LibRowSums
import proofs.«157061_j41875931136253_2_alg».proof.Proof.LibTransposedRhsMatmul

noncomputable section

namespace Cert.KernelIdeal.Payload

open Cert.KernelIdeal Cert.KernelIdeal.Gen Idealize.ShloMosaic Idealize.ShloMosaic.ValueIdx
open Cert.Lib.RowSums Cert.Lib.Keepdims Cert.Lib.TransposedRhsMatmul

/-- The printed dimension numbers are those of a product with the right operand contracted on its last axis. -/
theorem dot_eq : dot_S256x64_S1024x64_S256x1024_1_1_0_0_n_n = DotDims.transposedRhs 256 64 1024 := rfl

/-- The stored block at (0, p, q), as sums over the 64 coordinates of rows p and q of the two loaded blocks. -/
theorem payload_apply (x0 : Vec Ideal S1x256x64 .f32) (x1 : Vec Ideal S1x1024x64 .f32) (u : Fin 1) (p : Fin 256) (q : Fin 1024) :
    k0_pay1 (F := Ideal) x0 x1 (ix3 u p q)
      = max ((∑ k : Fin 64, x0 (ix3 (0 : Fin 1) p k) * x0 (ix3 (0 : Fin 1) p k))
            + (∑ k : Fin 64, x1 (ix3 (0 : Fin 1) q k) * x1 (ix3 (0 : Fin 1) q k))
            + ∑ k : Fin 64, (Ideal.ofBits .f32 0xC0000000#32 * x0 (ix3 (0 : Fin 1) p k)) * x1 (ix3 (0 : Fin 1) q k)) 0 := by
  unfold k0_pay1
  refine (shapeCast_ab_1ab_apply _ _ u p q).trans ?_
  refine (maximumf_apply _ _ (ix2 p q)).trans ?_
  refine congrArg₂ max ?_ Ideal.ofBits_zero_f32
  refine (addf_apply _ _ (ix2 p q)).trans ?_
  refine congrArg₂ (· + ·) ((addf_apply _ _ (ix2 p q)).trans (congrArg₂ (· + ·) ?_ ?_)) ?_
  · -- the first block's row sums, a column spread along the lanes
    refine (column_spread_apply _ _ _ p q).trans ?_
    refine (rowSum_apply _ _ _ _ p).trans ?_
    exact Finset.sum_congr rfl fun k _ =>
      congrArg₂ (· * ·) (shapeCast_1ab_ab_apply x0 _ p k) (shapeCast_1ab_ab_apply x0 _ p k)
  · -- the second block's row sums, re-laid as a row and spread along the rows
    refine (column_as_row_spread_apply _ _ _ _ p q).trans ?_
    refine (rowSum_apply _ _ _ _ q).trans ?_
    exact Finset.sum_congr rfl fun k _ =>
      congrArg₂ (· * ·) (shapeCast_1ab_ab_apply x1 _ q k) (shapeCast_1ab_ab_apply x1 _ q k)
  · -- the product of the scaled first block with the second, contracted on the coordinates
    refine (matmul_transposedRhs_zero_apply none _ _ p q).trans ?_
    exact Finset.sum_congr rfl fun k _ =>
      congrArg₂ (· * ·) (congrArg (Ideal.ofBits .f32 0xC0000000#32 * ·) (shapeCast_1ab_ab_apply x0 _ p k))
        (shapeCast_1ab_ab_apply x1 _ q k)

end Cert.KernelIdeal.Payload

end
-- ==== Proof.LibSquaredDistance.lean ====
/-
  The squared Euclidean distance between two real vectors, expanded: for real a, b over a finite index set,
      max ( Σ a·a + Σ b·b + Σ (−2·a)·b , 0 ) = Σ (a − b)·(a − b).
  The three sums on the left add up to the one on the right term by term (a² + b² − 2ab = (a − b)²), and a sum of
  squares is not negative, so the clamp at zero changes nothing. Stated on the extended reals for entries that are
  real numbers: there the equation is the real one under the coercion; with an infinite entry it fails (∞ − ∞).
  General: any finite index type.
-/
import Idealize.ShloMosaic.PureOps.Ideal

namespace Cert.Lib.SquaredDistance

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the two squared norms and the cross term, with its factor −2 folded into the first vector, add
    up to the sum of the squared differences. -/
theorem expand_real {ι : Type*} [Fintype ι] (α β : ι → ℝ) :
    (∑ k, α k * α k) + (∑ k, β k * β k) + ∑ k, ((-2) * α k) * β k = ∑ k, (α k - β k) * (α k - β k) := by
  rw [← Finset.sum_add_distrib, ← Finset.sum_add_distrib]
  exact Finset.sum_congr rfl fun k _ => by ring

/-- On the extended reals, for real entries: the clamped expansion is the sum of squared differences. The scale `c`
    is any extended real that denotes −2. -/
theorem clamp_expand_eq {ι : Type*} [Fintype ι] (a b : ι → EReal) (c : EReal) (hc : c = ((-2 : ℝ) : EReal))
    (ha : ∀ k, ∃ r : ℝ, a k = (r : EReal)) (hb : ∀ k, ∃ r : ℝ, b k = (r : EReal)) :
    max ((∑ k, a k * a k) + (∑ k, b k * b k) + ∑ k, (c * a k) * b k) 0 = ∑ k, (a k - b k) * (a k - b k) := by
  choose α hα using ha
  choose β hβ using hb
  subst hc
  have lhs : (∑ k, a k * a k) + (∑ k, b k * b k) + ∑ k, (((-2 : ℝ) : EReal) * a k) * b k
      = ((∑ k, (α k - β k) * (α k - β k) : ℝ) : EReal) := by
    simp only [hα, hβ, ← EReal.coe_mul, ← coe_sum, ← EReal.coe_add]
    exact congrArg _ (expand_real α β)
  have rhs : ∑ k, (a k - b k) * (a k - b k) = ((∑ k, (α k - β k) * (α k - β k) : ℝ) : EReal) := by
    simp only [hα, hβ, ← EReal.coe_sub, ← EReal.coe_mul, ← coe_sum]
  rw [lhs, rhs]
  exact max_eq_left (EReal.coe_nonneg.mpr (Finset.sum_nonneg fun k _ => mul_self_nonneg _))

end Cert.Lib.SquaredDistance
-- ==== Proof.DistanceForms.lean ====
/-
  The pairwise squared Euclidean distance of two batches of 1024 points in 64 dimensions, written two ways as a
  function of the two [4, 1024, 64] arrays, entry (b, n, m) of the [4, 1024, 1024] result:
    * `sqDist`:   Σ_k (A[b,n,k] − B[b,m,k])², the sum of the squared coordinate differences;
    * `expanded`: max ( Σ_k A[b,n,k]² + Σ_k B[b,m,k]² + Σ_k (−2·A[b,n,k])·B[b,m,k] , 0 ), the two squared norms plus
      the cross term with the factor −2 folded into the first point, clamped at zero.
  For arrays of real numbers the two agree (the binomial expansion, and a sum of squares is not negative). With an
  infinite entry they differ, which is why the equation asks for finiteness.
-/
import Idealize.ShloMosaic.PureOps.Ideal
import Idealize.ShloMosaic.Lib.ValueIdx
import proofs.«157061_j41875931136253_2_alg».proof.Proof.LibSquaredDistance

noncomputable section

namespace Cert.Distance

open Idealize.ShloMosaic Idealize.ShloMosaic.ValueIdx

/-- The shape of each argument: batch × points × coordinates. -/
abbrev SPts : Shape := ⟨3, ![4, 1024, 64]⟩
/-- The shape of the result: batch × first array's points × second array's points. -/
abbrev SOut : Shape := ⟨3, ![4, 1024, 1024]⟩

/-- Entry (b, n, m): the sum over the 64 coordinates of the squared difference of point n of `A` and point m of `B`. -/
def sqDist (A B : FVec Ideal SPts .f32) : FVec Ideal SOut .f32 := fun i =>
  ∑ k : Fin 64, (A (ix3 (i 0) (i 1) k) - B (ix3 (i 0) (i 2) k)) * (A (ix3 (i 0) (i 1) k) - B (ix3 (i 0) (i 2) k))

/-- Entry (b, n, m): ‖A[b,n]‖² + ‖B[b,m]‖² + Σ_k (c·A[b,n,k])·B[b,m,k] clamped below at zero, `c` the f32 constant −2. -/
def expanded (A B : FVec Ideal SPts .f32) : FVec Ideal SOut .f32 := fun i =>
  max ((∑ k : Fin 64, A (ix3 (i 0) (i 1) k) * A (ix3 (i 0) (i 1) k))
        + (∑ k : Fin 64, B (ix3 (i 0) (i 2) k) * B (ix3 (i 0) (i 2) k))
        + ∑ k : Fin 64, (Ideal.ofBits .f32 0xC0000000#32 * A (ix3 (i 0) (i 1) k)) * B (ix3 (i 0) (i 2) k)) 0

/-- The f32 pattern of −2.0 denotes the real number −2. -/
theorem ofBits_neg_two : Ideal.ofBits .f32 0xC0000000#32 = ((-2 : ℝ) : EReal) := by
  simp [Ideal.ofBits, Ideal.ieee, -EReal.coe_mul]; norm_num

/-- For arrays of real numbers the expanded, clamped form is the squared distance. -/
theorem expanded_eq_sqDist (A B : FVec Ideal SPts .f32)
    (hA : ∀ i, ∃ r : ℝ, A i = (r : EReal)) (hB : ∀ i, ∃ r : ℝ, B i = (r : EReal)) :
    expanded A B = sqDist A B :=
  funext fun i =>
    Cert.Lib.SquaredDistance.clamp_expand_eq (fun k : Fin 64 => A (ix3 (i 0) (i 1) k)) (fun k : Fin 64 => B (ix3 (i 0) (i 2) k))
      _ ofBits_neg_two (fun _ => hA _) (fun _ => hB _)

end Cert.Distance

end
-- ==== Proof.BlocksToArray.lean ====
/-
  From what each grid point writes to the whole result array. The grid has 4 × 4 points (b, j): point (b, j) loads rows
  256·j … 256·j + 255 of batch b of the first array and all 1024 rows of batch b of the second, and writes rows
  256·j … 256·j + 255 of batch b of the result. Entry (p, q) of the written block depends on row p of the first block and
  row q of the second, that is on rows 256·j + p and q of batch b of the two arrays: the block is the block of ONE
  whole-array function, `Cert.Distance.expanded` of the two argument arrays. The sixteen blocks tile the result (row r of
  batch b is in the block of point (b, r / 256)), so after the run the result array is that function everywhere.
-/
import proofs.«157061_j41875931136253_2_alg».proof.Proof.Gen.KernelIdeal.Value
import proofs.«157061_j41875931136253_2_alg».proof.Proof.BlockPayload
import proofs.«157061_j41875931136253_2_alg».proof.Proof.DistanceForms

noncomputable section

namespace Cert.KernelIdeal.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The body's loads and its store start at the origin of their staging buffers. -/
theorem offsets_zero : (![0, 0, 0] : Fin 3 → Nat) = fun _ => 0 := funext fun a => by fin_cases a <;> rfl

/-- The block indices of the three windows at a grid point, decided over the 16 points: the first input moves with the
    output on the batch and row-block axes, the second input on the batch axis only, every other block index is 0. -/
theorem index_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0
    ∧ win0_1.index t (2 : Fin 3) = 0
    ∧ win0_2.index t (0 : Fin 3) ≤ 3 ∧ win0_2.index t (1 : Fin 3) ≤ 3 ∧ win0_2.index t (2 : Fin 3) = 0 :=
  (by decide +kernel : ∀ t : Fin grid0.N, _)

/-- Every (batch, row block) pair is some grid point's output block. -/
theorem index_onto : ∀ (b : Fin 4) (j : Fin 4), ∃ t : Fin cfg0.N, win0_2.index t = ![b.val, j.val, 0] :=
  (by decide +kernel : ∀ (b : Fin 4) (j : Fin 4), ∃ t : Fin grid0.N, win0_2.index t = ![b.val, j.val, 0])

/-- Row p, coordinate k of the first input's block at point `t` is the first array at the batch and row of the output
    block's entry (p, q), coordinate k. -/
theorem first_block_entry (c : Dev nD) (t : Fin cfg0.N) (u : Fin 1) (p : Fin 256) (q : Fin 1024) (k : Fin 64) :
    (iblk m c 0 t : Vec Ideal S1x256x64 .f32) (ix3 (0 : Fin 1) p k)
      = (V m c main_arg0 : S4x1024x64.Idx → EReal)
          (ix3 ((((cfg0.win 2).blk t).view.emb (ix3 u p q : S1x256x1024.Idx)) 0)
            ((((cfg0.win 2).blk t).view.emb (ix3 u p q : S1x256x1024.Idx)) 1) k) := by
  obtain ⟨e00, e01, e02, -, -, -, -, -, -⟩ := index_facts t
  have hu : u.val = 0 := by omega
  show (V m c main_arg0 : S4x1024x64.Idx → EReal) (((cfg0.win 0).blk t).view.emb (ix3 (0 : Fin 1) p k : S1x256x64.Idx)) = _
  refine congrArg (V m c main_arg0 : S4x1024x64.Idx → EReal) (funext fun a => Fin.ext ?_)
  match a with
  | ⟨0, _⟩ => show win0_0.index t (0 : Fin 3) * 1 + 1 * 0 = win0_2.index t (0 : Fin 3) * 1 + 1 * u.val; omega
  | ⟨1, _⟩ => show win0_0.index t (1 : Fin 3) * 256 + 1 * p.val = win0_2.index t (1 : Fin 3) * 256 + 1 * p.val; omega
  | ⟨2, _⟩ => show win0_0.index t (2 : Fin 3) * 64 + 1 * k.val = k.val; omega

/-- Row q, coordinate k of the second input's block at point `t` is the second array at the batch and COLUMN of the
    output block's entry (p, q), coordinate k. -/
theorem second_block_entry (c : Dev nD) (t : Fin cfg0.N) (u : Fin 1) (p : Fin 256) (q : Fin 1024) (k : Fin 64) :
    (iblk m c 1 t : Vec Ideal S1x1024x64 .f32) (ix3 (0 : Fin 1) q k)
      = (V m c main_arg1 : S4x1024x64.Idx → EReal)
          (ix3 ((((cfg0.win 2).blk t).view.emb (ix3 u p q : S1x256x1024.Idx)) 0)
            ((((cfg0.win 2).blk t).view.emb (ix3 u p q : S1x256x1024.Idx)) 2) k) := by
  obtain ⟨-, -, -, e10, e11, e12, -, -, e22⟩ := index_facts t
  have hu : u.val = 0 := by omega
  show (V m c main_arg1 : S4x1024x64.Idx → EReal) (((cfg0.win 1).blk t).view.emb (ix3 (0 : Fin 1) q k : S1x1024x64.Idx)) = _
  refine congrArg (V m c main_arg1 : S4x1024x64.Idx → EReal) (funext fun a => Fin.ext ?_)
  match a with
  | ⟨0, _⟩ => show win0_1.index t (0 : Fin 3) * 1 + 1 * 0 = win0_2.index t (0 : Fin 3) * 1 + 1 * u.val; omega
  | ⟨1, _⟩ => show win0_1.index t (1 : Fin 3) * 1024 + 1 * q.val = win0_2.index t (2 : Fin 3) * 1024 + 1 * q.val; omega
  | ⟨2, _⟩ => show win0_1.index t (2 : Fin 3) * 64 + 1 * k.val = k.val; omega

/-- WHAT POINT `t` WRITES BACK is block `t` of the expanded distance of the two argument arrays. -/
theorem flushed_eq (c : Dev nD) (t : Fin cfg0.N) :
    (dats m 0 c).flushed 2 t
      = ((cfg0.win 2).blk t).view.read (Elt Ideal) (Cert.Distance.expanded (V m c main_arg0) (V m c main_arg1)) := by
  rw [Value.flushed2]
  unfold out0_2
  rw [View.canon_unit_zero offsets_zero]
  simp only [View.ld_unit_zero (S := S1x256x64) offsets_zero, View.ld_unit_zero (S := S1x1024x64) offsets_zero]
  funext j
  show k0_pay1 (F := Ideal) (iblk m c 0 t) (iblk m c 1 t) j
    = Cert.Distance.expanded (V m c main_arg0) (V m c main_arg1) (((cfg0.win 2).blk t).view.emb j)
  obtain ⟨u, p, q, rfl⟩ : ∃ (u : Fin 1) (p : Fin 256) (q : Fin 1024), j = (ix3 u p q : S1x256x1024.Idx) :=
    ⟨j 0, j 1, j 2, eq_ix3 j⟩
  refine (Payload.payload_apply (iblk m c 0 t) (iblk m c 1 t) u p q).trans ?_
  unfold Cert.Distance.expanded
  simp only [first_block_entry m c t u p q, second_block_entry m c t u p q]

/-- An index of the result is in point `t`'s block iff each coordinate is in the block's range on its axis. -/
theorem mem_block (t : Fin cfg0.N) (i : S4x1024x1024.Idx) :
    i ∈ ((cfg0.win 2).blk t).view.set ↔ ∀ a : Fin 3, win0_2.index t a * S1x256x1024.size a ≤ (i a).val
      ∧ (i a).val < win0_2.index t a * S1x256x1024.size a + S1x256x1024.size a := by
  show i ∈ ((View.whole main_v0).slice (win0_2.rect t)).set ↔ _
  rw [View.set_slice_whole, Rect.mem_set_unit]
  exact Iff.rfl

/-- THE COVER: entry (b, r, ·) of the result lies in the block of the point with block index (b, r / 256, 0). -/
theorem covered (i : S4x1024x1024.Idx) :
    ∃ t : Fin cfg0.N, (cfg0.win 2).flush t = true ∧ i ∈ ((cfg0.win 2).blk t).view.set := by
  have hi0 : (i 0).val < 4 := (i 0).isLt
  have hi1 : (i 1).val < 1024 := (i 1).isLt
  have hi2 : (i 2).val < 1024 := (i 2).isLt
  obtain ⟨t, ht⟩ := index_onto ⟨(i 0).val, hi0⟩ ⟨(i 1).val / 256, by omega⟩
  have q0 : win0_2.index t (0 : Fin 3) = (i 0).val := congrFun ht 0
  have q1 : win0_2.index t (1 : Fin 3) = (i 1).val / 256 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 1024 ≤ (i 2).val ∧ (i 2).val < win0_2.index t (2 : Fin 3) * 1024 + 1024; omega

/-- THE ARRAY after the run: the expanded distance of the two argument arrays as launched. -/
theorem final (c : Dev nD) :
    (dats m 0 c).arrAt 2 cfg0.N
      = Cert.Distance.expanded (m ((c : Thread nD τ).loc main_arg0)) (m ((c : Thread nD τ).loc main_arg1)) :=
  (dats m 0 c).arrAt_eq_of_cover 2 (Cert.Distance.expanded (V m c main_arg0) (V m c main_arg1))
    (fun t _ => flushed_eq m c t) covered

/-- The run, read: the result array at the expanded distance of the arguments, the arguments unchanged. -/
theorem run : θ_run defs (onTc (τ := τ) (main (F := Ideal))) ⟨m, fun _ => 0, ρ⟩ fun r => ∀ c : Dev nD,
      r.2.mem ((c : Thread nD τ).loc main_v0)
        = Cert.Distance.expanded (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.ReferenceDistance.lean ====
/-
  What the reference computes, entry by entry: it spreads the first array along a new third axis and the second along
  a new second axis, subtracts, squares and sums over the last axis from zero. Read at (b, n, m) that is the sum over
  the 64 coordinates k of (A[b,n,k] − B[b,m,k])², the squared distance `Cert.Distance.sqDist`: each spread reads its
  operand at the index with the new axis dropped, and the sum's starting value is the real number zero.
-/
import proofs.«157061_j41875931136253_2_alg».proof.Proof.Gen.ReferenceIdeal.Read
import proofs.«157061_j41875931136253_2_alg».proof.Proof.DistanceForms

noncomputable section

namespace Cert.ReferenceIdeal.Distance

open Cert.ReferenceIdeal Cert.ReferenceIdeal.Gen Cert.ReferenceIdeal.Read Idealize.ShloMosaic Idealize.ShloMosaic.ValueIdx

/-- Through the two spreads, the first array is read at (b, n, k) for the summand k of entry (b, n, m). -/
theorem first_index (i : S4x1024x1024.Idx) (k : Fin 64) :
    idx_main_v0 (idx_main_v2 (idx_main_v6 i k)) = ix3 (i 0) (i 1) k :=
  funext fun a => Fin.ext (by match a with | ⟨0, _⟩ => rfl | ⟨1, _⟩ => rfl | ⟨2, _⟩ => rfl)

/-- … and the second array at (b, m, k). -/
theorem second_index (i : S4x1024x1024.Idx) (k : Fin 64) :
    idx_main_v1 (idx_main_v3 (idx_main_v6 i k)) = ix3 (i 0) (i 2) k :=
  funext fun a => Fin.ext (by match a with | ⟨0, _⟩ => rfl | ⟨1, _⟩ => rfl | ⟨2, _⟩ => rfl)

/-- The reference's result is the squared distance, entry by entry. -/
theorem reference_eq_sqDist (A B : FVec Ideal S4x1024x64 .f32) :
    val_main_v6 (F := Ideal) A B = Cert.Distance.sqDist A B := by
  funext i
  rw [val_main_v6_apply]
  simp only [val_main_v5_apply, val_main_v4_apply, val_main_v2_apply, val_main_v3_apply, val_main_v0_apply,
    val_main_v1_apply, val_main_cst_apply, first_index, second_index, Ideal.ofBits_def, Ideal.ofBits_zero_f32,
    zero_add, Ideal.mulf_def, Ideal.subf_def]
  rfl

end Cert.ReferenceIdeal.Distance

end
-- ==== Proof.LibFiniteCheck.lean ====
/-
  One finiteness check of a printed precondition, read back (general: any shape, any reduced axes).

  A precondition "every float input is finite" prints, per argument x, as a reduction by "and" over all axes of the
  one-bit array (|x| < +inf), started from the constant 1, and the claim states that the result is 1. Then the
  comparison is 1 at every index; an extended real whose absolute value max(x, -x) is below plus infinity is neither
  infinity; so every entry of x is a real number.
-/
import Idealize.ShloMosaic.Lib.ReduceAll
import Idealize.ShloMosaic.Lib.ValueIdx
import Idealize.ShloMosaic.Lib.Pipeline.Value
import Idealize.ShloMosaic.PureOps.Ideal

noncomputable section

namespace Cert.Lib.FiniteCheck

open Idealize.ShloMosaic Idealize.ShloMosaic.ValueIdx

/-- `Cert.Lib.FiniteCheck.scalarIdx_subsingleton`: the result of a reduction over all axes has one index. -/
instance scalarIdx_subsingleton : Subsingleton (⟨0, ![]⟩ : Shape).Idx := ⟨fun a b => funext fun d => d.elim0⟩

/-- `Cert.Lib.FiniteCheck.ofBits_inf`: the f32 pattern of plus infinity denotes plus infinity. -/
theorem ofBits_inf : Ideal.ofBits .f32 0x7F800000#32 = (⊤ : EReal) := by
  simp [Ideal.ofBits, Ideal.ieee]

/-- `Cert.Lib.FiniteCheck.real_of_abs_lt_top`: an extended real whose absolute value is below plus infinity is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- `Cert.Lib.FiniteCheck.all_real`: one check of the precondition. If "all entries have absolute value below plus
    infinity" came out 1, every entry is a real number. The shape relations are whatever the program states. -/
theorem all_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x)
        (broadcastInDim s (![] : Fin 0 → Fin s.rank) hb (constant (F := Ideal) ⟨0, ![]⟩ .f32 0x7F800000#32)))
        (constantI ⟨0, ![]⟩ 1 1#1) hr hu ix0 = 1#1) (i : s.Idx) : ∃ r : ℝ, x i = (r : EReal) := by
  have h1 := Host.reduce_andi_all _ _ hr hu ix0 e i
  rw [cmpf_apply, broadcastInDim_apply _ hb _ i ix0 (fun ax => ax.elim0)] at h1
  apply real_of_abs_lt_top
  have h2 : Ideal.cmp .olt (max (x i) (-(x i))) (Ideal.ofBits .f32 0x7F800000#32) = 1#1 := h1
  rw [ofBits_inf] at h2
  unfold Ideal.cmp at h2
  by_contra hn
  simp [hn] at h2

end Cert.Lib.FiniteCheck

end
-- ==== Proof.FiniteEntries.lean ====
/-
  The precondition, read back: "every float input is finite" is the conjunction of two checks, one per argument, each
  the reduction by "and" over all axes of (|x| < +inf). When the conjunction is 1 both checks are 1, and then every
  entry of both arrays is a real number.
-/
import proofs.«157061_j41875931136253_2_alg».proof.Pre_finite_inputs
import proofs.«157061_j41875931136253_2_alg».proof.Proof.Gen.Pre_finite_inputs
import proofs.«157061_j41875931136253_2_alg».proof.Proof.LibFiniteCheck
import Idealize.ShloMosaic.Lib.Affine

noncomputable section

namespace Cert.Finite

open Idealize.ShloMosaic Idealize.ShloMosaic.ValueIdx

/-- If the printed precondition evaluates to 1 on two arrays, all their entries are real numbers. -/
theorem entries_real (a0 a1 : FVec Ideal Cert.Pre_finite_inputs.S4x1024x64 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ix0
  dsimp only [Cert.Pre_finite_inputs.fn] at h0
  obtain ⟨e0, e1⟩ := IntOp.andi_eq_one.1 h0
  exact ⟨Cert.Lib.FiniteCheck.all_real a0 _ _ _ e0, Cert.Lib.FiniteCheck.all_real a1 _ _ _ e1⟩

end Cert.Finite

end
-- ==== Proof.lean ====
/-
  The pairwise squared Euclidean distance of two [4, 1024, 64] arrays, entry (b, n, m) = Σ_k (A[b,n,k] − B[b,m,k])², computed
  two ways that agree on real inputs.

  The reference spreads both arrays to [4, 1024, 1024, 64], subtracts, squares and sums the last axis: entry by entry the
  sum of squared differences (Proof/ReferenceDistance.lean). The kernel never forms the differences: on a 4 × 4 grid, for
  256 rows of one batch of A against all 1024 rows of the same batch of B, it adds the rows' squared norms and the
  product of (−2·A) with B contracted on the coordinates, and clamps at zero (Proof/BlockPayload.lean); its sixteen
  blocks tile the result, which therefore is the expanded form max(‖a‖² + ‖b‖² + Σ(−2a)b, 0) everywhere
  (Proof/BlocksToArray.lean). For real entries ‖a‖² + ‖b‖² − 2⟨a, b⟩ = ‖a − b‖² ≥ 0, so the clamp is idle and the two forms
  are one function (Proof/DistanceForms.lean); the entries are real because the precondition says every input is
  finite (Proof/FiniteEntries.lean) — with an infinite entry the expansion would read ∞ − ∞ and the equation fail.
  At the ideal values the narrowing to bf16 before the product is the identity, and the ideal pass rewrote nothing, so
  the idealization's own claim is trivial; the three frames are the generated ones.
-/
import proofs.«157061_j41875931136253_2_alg».proof.Defs
import proofs.«157061_j41875931136253_2_alg».proof.Proof.Gen.Kernel
import proofs.«157061_j41875931136253_2_alg».proof.Proof.Gen.Kernel.Skeleton
import proofs.«157061_j41875931136253_2_alg».proof.Proof.Gen.Kernel.Launch
import proofs.«157061_j41875931136253_2_alg».proof.Proof.Gen.Kernel.Points
import proofs.«157061_j41875931136253_2_alg».proof.Proof.Gen.Kernel.Frame
import proofs.«157061_j41875931136253_2_alg».proof.Proof.Gen.KernelIdeal
import proofs.«157061_j41875931136253_2_alg».proof.Proof.Gen.KernelIdeal.Skeleton
import proofs.«157061_j41875931136253_2_alg».proof.Proof.Gen.KernelIdeal.Launch
import proofs.«157061_j41875931136253_2_alg».proof.Proof.Gen.KernelIdeal.Points
import proofs.«157061_j41875931136253_2_alg».proof.Proof.Gen.KernelIdeal.Frame
import proofs.«157061_j41875931136253_2_alg».proof.Proof.Gen.ReferenceIdeal
import proofs.«157061_j41875931136253_2_alg».proof.Proof.Gen.Pre_finite_inputs
import proofs.«157061_j41875931136253_2_alg».proof.Proof.Gen.KernelIdeal.Value
import proofs.«157061_j41875931136253_2_alg».proof.Proof.Gen.ReferenceIdeal.Run
import proofs.«157061_j41875931136253_2_alg».proof.Proof.Gen.ReferenceIdeal.Read
import proofs.«157061_j41875931136253_2_alg».proof.Proof.BlocksToArray
import proofs.«157061_j41875931136253_2_alg».proof.Proof.ReferenceDistance
import proofs.«157061_j41875931136253_2_alg».proof.Proof.FiniteEntries
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference is eight host operations in a row: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the squared distance of the (agreeing, finite) arguments in their result: the kernel with
    the expanded, clamped form, which on real entries is the squared distance; the reference with the sum of squared
    differences itself. -/
theorem algebraic : Cert.algebraic_KernelIdeal_ReferenceIdeal := by
  intro m ρ m' ρ' hpre hagree
  refine ⟨fun c => Cert.Distance.sqDist (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.Blocks.run m ρ)
    obtain ⟨h0, h1⟩ := Cert.Finite.entries_real _ _ (hpre c)
    exact Cert.Distance.expanded_eq_sqDist _ _ h0 h1
  · refine (θ_run Cert.ReferenceIdeal.defs _ _).mono (fun _ h c => ⟨(h c).1.trans ?_, (h c).2⟩)
      (Cert.ReferenceIdeal.Value.run (F := Ideal) m' ρ')
    refine ((Cert.ReferenceIdeal.Read.val_main_v6_eq _ _).trans
      (Cert.ReferenceIdeal.Distance.reference_eq_sqDist _ _)).trans ?_
    rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
